-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x2048x256 : Shape := ⟨4, ![1, 32, 2048, 256]⟩
abbrev S128x256 : Shape := ⟨2, ![128, 256]⟩
abbrev S_ : Shape := ⟨0, ![]⟩

class Facts : Prop where
  bcast_S_S1x32x2048x256 : S_.BroadcastsInDim S1x32x2048x256 (![] : Fin 0 → Fin S1x32x2048x256.rank)
  reducesTo_S1x32x2048x256_S_d0_1_2_3 : S1x32x2048x256.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S1x32x2048x256 .f32) (main_arg1 : FVec F S128x256 .f32) (main_arg2 : FVec F S128x256 .f32) (main_arg3 : FVec F S128x256 .f32) : IVec S_ 1 :=
  let main_v0 : FVec F S1x32x2048x256 .f32 := Host.absf main_arg0
  let main_cst : FVec F S_ .f32 := constant S_ .f32 0x7F800000#32
  let main_v1 : FVec F S1x32x2048x256 .f32 := broadcastInDim S1x32x2048x256 ![] bcast_S_S1x32x2048x256 main_cst
  let main_v2 : IVec S1x32x2048x256 1 := cmpf .olt main_v0 main_v1
  let main_c : IVec S_ 1 := constantI S_ 1 1#1
  let main_v3 : IVec S_ 1 := (fun x v => Host.reduce IntOp.andi x v reducesTo_S1x32x2048x256_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Kernel.lean ====
abbrev S1x32x2048x256 : Shape := ⟨4, ![1, 32, 2048, 256]⟩
abbrev S128x256 : Shape := ⟨2, ![128, 256]⟩
abbrev S32x2048x256 : Shape := ⟨3, ![32, 2048, 256]⟩
abbrev S32x2048x128 : Shape := ⟨3, ![32, 2048, 128]⟩
abbrev S1x2048x256 : Shape := ⟨3, ![1, 2048, 256]⟩
abbrev S1x2048x128 : Shape := ⟨3, ![1, 2048, 128]⟩
abbrev S2048x256 : Shape := ⟨2, ![2048, 256]⟩
abbrev S256x128 : Shape := ⟨2, ![256, 128]⟩
abbrev S2048x128 : Shape := ⟨2, ![2048, 128]⟩
abbrev S128x2048 : Shape := ⟨2, ![128, 2048]⟩
abbrev S2048x2048 : Shape := ⟨2, ![2048, 2048]⟩
abbrev S2048 : Shape := ⟨1, ![2048]⟩
abbrev S2048x1 : Shape := ⟨2, ![2048, 1]⟩
abbrev S1x32x2048x128 : Shape := ⟨4, ![1, 32, 2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x32x2048x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S32x2048x256, .f32⟩
  | .hbm, ⟨5, _⟩ => ⟨S32x2048x128, .f32⟩
  | .hbm, ⟨6, _⟩ => ⟨S1x32x2048x128, .f32⟩
  | .local _ .vmem, ⟨0, _⟩ => ⟨S1x2048x256, .f32⟩
  | .local _ .vmem, ⟨1, _⟩ => ⟨S1x2048x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S1x2048x128, .f32⟩
  | .local _ .vmem, ⟨6, _⟩ => ⟨S1x2048x128, .f32⟩
  | _, _ => ⟨S1x32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x32x2048x256_S32x2048x256 : S1x32x2048x256.ShapeCasts S32x2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  transposes_S2048x128_p1_0_S128x2048 : S2048x128.Transposes [1, 0] S128x2048
  reduces_S2048x2048_S2048 : S2048x2048.Reduces [1] S2048
  shapeCasts_S2048_S2048x1 : S2048.ShapeCasts S2048x1
  broadcasts_S2048x1_S2048x2048 : S2048x1.Broadcasts S2048x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  shapeCasts_S32x2048x128_S1x32x2048x128 : S32x2048x128.ShapeCasts S1x32x2048x128
  dot_S2048x256_S256x128_S2048x128_1_0_0_1_n_n_wf : DotDims.WF S2048x256 S256x128 S2048x128 [1] [0] [0] [1] [] []
  dot_S2048x128_S128x2048_S2048x2048_1_0_0_1_n_n_wf : DotDims.WF S2048x128 S128x2048 S2048x2048 [1] [0] [0] [1] [] []
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S32x2048x256.size a
  hwx0_0 : ∀ i : grid0.Coords, EltTy.bits .f32 = 32 ∨ (Rect.block (s := S32x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S32x2048x128.size a
  hwx0_4 : ∀ i : grid0.Coords, EltTy.bits .f32 = 32 ∨ (Rect.block (s := S32x2048x128) S1x2048x128.size (cc0_transform_4 i) (hinb0_4 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_v0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x32x2048x256 : Shape := ⟨4, ![1, 32, 2048, 256]⟩
abbrev S128x256 : Shape := ⟨2, ![128, 256]⟩
abbrev S32x1x2048x256 : Shape := ⟨4, ![32, 1, 2048, 256]⟩
abbrev S32x1x2048x128 : Shape := ⟨4, ![32, 1, 2048, 128]⟩
abbrev S32x1x2048x2048 : Shape := ⟨4, ![32, 1, 2048, 2048]⟩
abbrev S_ : Shape := ⟨0, ![]⟩
abbrev S32x1x2048 : Shape := ⟨3, ![32, 1, 2048]⟩
abbrev S32x1x2048x1 : Shape := ⟨4, ![32, 1, 2048, 1]⟩
abbrev S1x32x2048x128 : Shape := ⟨4, ![1, 32, 2048, 128]⟩

abbrev nBuf : Space → Nat
  | .hbm => 28
  | .vmem => 0
  | .smem => 0
  | _ => 0

abbrev bufTy : (tb : Table) → Fin (tcTables nBuf tb) → BufTy
  | .hbm, ⟨0, _⟩ => ⟨S1x32x2048x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S32x1x2048x256, .f32⟩
  | .hbm, ⟨5, _⟩ => ⟨S32x1x2048x128, .f32⟩
  | .hbm, ⟨6, _⟩ => ⟨S32x1x2048x128, .f32⟩
  | .hbm, ⟨7, _⟩ => ⟨S32x1x2048x128, .f32⟩
  | .hbm, ⟨8, _⟩ => ⟨S32x1x2048x2048, .f32⟩
  | .hbm, ⟨9, _⟩ => ⟨S_, .f32⟩
  | .hbm, ⟨10, _⟩ => ⟨S32x1x2048x2048, .f32⟩
  | .hbm, ⟨11, _⟩ => ⟨S32x1x2048x2048, .f32⟩
  | .hbm, ⟨12, _⟩ => ⟨S_, .f32⟩
  | .hbm, ⟨13, _⟩ => ⟨S32x1x2048, .f32⟩
  | .hbm, ⟨14, _⟩ => ⟨S_, .f32⟩
  | .hbm, ⟨15, _⟩ => ⟨S32x1x2048, .f32⟩
  | .hbm, ⟨16, _⟩ => ⟨S32x1x2048, .f32⟩
  | .hbm, ⟨17, _⟩ => ⟨S32x1x2048x1, .f32⟩
  | .hbm, ⟨18, _⟩ => ⟨S32x1x2048x2048, .f32⟩
  | .hbm, ⟨19, _⟩ => ⟨S32x1x2048x2048, .f32⟩
  | .hbm, ⟨20, _⟩ => ⟨S32x1x2048x2048, .f32⟩
  | .hbm, ⟨21, _⟩ => ⟨S_, .f32⟩
  | .hbm, ⟨22, _⟩ => ⟨S32x1x2048, .f32⟩
  | .hbm, ⟨23, _⟩ => ⟨S32x1x2048x1, .f32⟩
  | .hbm, ⟨24, _⟩ => ⟨S32x1x2048x2048, .f32⟩
  | .hbm, ⟨25, _⟩ => ⟨S32x1x2048x2048, .f32⟩
  | .hbm, ⟨26, _⟩ => ⟨S32x1x2048x128, .f32⟩
  | .hbm, ⟨27, _⟩ => ⟨S1x32x2048x128, .f32⟩
  | _, _ => ⟨S1x32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  shapeCasts_S1x32x2048x256_S32x1x2048x256 : S1x32x2048x256.ShapeCasts S32x1x2048x256
  bcast_S_S32x1x2048x2048 : S_.BroadcastsInDim S32x1x2048x2048 (![] : Fin 0 → Fin S32x1x2048x2048.rank)
  reducesTo_S32x1x2048x2048_S32x1x2048_d3 : S32x1x2048x2048.ReducesTo [3] S32x1x2048
  h_S_ : 0 < S_.numel
  bcast_S_S32x1x2048 : S_.BroadcastsInDim S32x1x2048 (![] : Fin 0 → Fin S32x1x2048.rank)
  bcast_S32x1x2048_S32x1x2048x1_0_1_2 : S32x1x2048.BroadcastsInDim S32x1x2048x1 (![0, 1, 2] : Fin 3 → Fin S32x1x2048x1.rank)
  bcast_S32x1x2048x1_S32x1x2048x2048_0_1_2_3 : S32x1x2048x1.BroadcastsInDim S32x1x2048x2048 (![0, 1, 2, 3] : Fin 4 → Fin S32x1x2048x2048.rank)
  shapeCasts_S32x1x2048x128_S1x32x2048x128 : S32x1x2048x128.ShapeCasts S1x32x2048x128
  dot_S32x1x2048x256_S128x256_S32x1x2048x128_3_1_012_0_n_n_wf : DotDims.WF S32x1x2048x256 S128x256 S32x1x2048x128 [3] [1] [0, 1, 2] [0] [] []
  dot_S32x1x2048x128_S32x1x2048x128_S32x1x2048x2048_3_3_2_2_01_01_wf : DotDims.WF S32x1x2048x128 S32x1x2048x128 S32x1x2048x2048 [3] [3] [2] [2] [0, 1] [0, 1]
  dot_S32x1x2048x2048_S32x1x2048x128_S32x1x2048x128_3_2_2_3_01_01_wf : DotDims.WF S32x1x2048x2048 S32x1x2048x128 S32x1x2048x128 [3] [2] [2] [3] [0, 1] [0, 1]

variable [Facts₀]

def dot_S32x1x2048x256_S128x256_S32x1x2048x128_3_1_012_0_n_n : DotDims S32x1x2048x256 S128x256 S32x1x2048x128 where
  lhsContracting := [3]
  rhsContracting := [1]
  lhsNonContracting := [0, 1, 2]
  rhsNonContracting := [0]
  lhsBatch := []
  rhsBatch := []
  wf := dot_S32x1x2048x256_S128x256_S32x1x2048x128_3_1_012_0_n_n_wf
def dot_S32x1x2048x128_S32x1x2048x128_S32x1x2048x2048_3_3_2_2_01_01 : DotDims S32x1x2048x128 S32x1x2048x128 S32x1x2048x2048 where
  lhsContracting := [3]
  rhsContracting := [3]
  lhsNonContracting := [2]
  rhsNonContracting := [2]
  lhsBatch := [0, 1]
  rhsBatch := [0, 1]
  wf := dot_S32x1x2048x128_S32x1x2048x128_S32x1x2048x2048_3_3_2_2_01_01_wf
def dot_S32x1x2048x2048_S32x1x2048x128_S32x1x2048x128_3_2_2_3_01_01 : DotDims S32x1x2048x2048 S32x1x2048x128 S32x1x2048x128 where
  lhsContracting := [3]
  rhsContracting := [2]
  lhsNonContracting := [2]
  rhsNonContracting := [3]
  lhsBatch := [0, 1]
  rhsBatch := [0, 1]
  wf := dot_S32x1x2048x2048_S32x1x2048x128_S32x1x2048x128_3_2_2_3_01_01_wf

class Facts : Prop extends Facts₀ where

variable [Facts]
-- ==== Proof.Attention.lean ====
/-
  Single-head attention over the tokens of one sample, as a function on the extended reals.

  A sample is a T × L matrix X of token features; three H × L weight matrices give keys, queries and values by
  x ↦ x · Wᵀ. The score of token c against token d is the inner product of c's query with d's key times a fixed
  factor; each row of scores is turned into weights by the softmax (subtract the row's maximum, exponentiate,
  divide by the row's sum), and token c's output is the weighted sum of the values.

  Everything is spelt with finite sums and one fold of max over the tokens, so that two programs which compute these
  quantities in different layouts can both be read against it entry by entry. The factor and the fold's start are kept
  as the f32 words the programs print; neither is ever evaluated.
-/
import Idealize.ShloMosaic.PureOps.Ideal
import Idealize.ShloMosaic.Lib.ValueIdx

noncomputable section

namespace Cert.Attention

open Idealize.ShloMosaic Idealize.ShloMosaic.ValueIdx

/-- The factor on the scores: the f32 word of 128^(-1/2), the same word in both programs. -/
abbrev scale : EReal := Ideal.ofBits .f32 0x3DB504F3#32
/-- The start of a row's maximum: the f32 word of -∞. -/
abbrev negInf : EReal := Ideal.ofBits .f32 0xFF800000#32

variable {T L H : ℕ}

/-- x · Wᵀ: entry (c, h) is the inner product of token c's features with row h of the weights. -/
def proj (X : Fin T → Fin L → EReal) (W : (⟨2, ![H, L]⟩ : Shape).Idx → EReal) (c : Fin T) (h : Fin H) : EReal :=
  ∑ l : Fin L, X c l * W (ix2 h l)

/-- The scaled score of token c's query against token d's key. -/
def score (Q K : Fin T → Fin H → EReal) (c d : Fin T) : EReal := (∑ h : Fin H, Q c h * K d h) * scale

/-- The maximum of row c of the scores (taken once more against -∞, as both programs do). -/
def rowMax (S : Fin T → Fin T → EReal) (c : Fin T) : EReal :=
  max negInf ((Finset.univ : Finset (Fin T)).fold max negInf fun d => S c d)

/-- exp of a score less its row's maximum. -/
def expo (S : Fin T → Fin T → EReal) (c d : Fin T) : EReal := Ideal.exp (S c d - rowMax S c)

/-- The sum of row c of the exponentials. -/
def denom (S : Fin T → Fin T → EReal) (c : Fin T) : EReal := ∑ d : Fin T, expo S c d

/-- The softmax weight of token d for token c. -/
def prob (S : Fin T → Fin T → EReal) (c d : Fin T) : EReal := Ideal.div (expo S c d) (denom S c)

/-- Weights times values: entry (c, h) is the sum over tokens d of the weight of d for c times d's value at h. -/
def mix (P : Fin T → Fin T → EReal) (V : Fin T → Fin H → EReal) (c : Fin T) (h : Fin H) : EReal :=
  ∑ d : Fin T, P c d * V d h

/-- One sample's attention output at token c and head coordinate h, from the sample's features and the key, query
    and value weights (in that order). -/
def attend (X : Fin T → Fin L → EReal) (Wk Wq Wv : (⟨2, ![H, L]⟩ : Shape).Idx → EReal) (c : Fin T) (h : Fin H) : EReal :=
  mix (prob (score (proj X Wq) (proj X Wk))) (proj X Wv) c h

/-- Sample s of a batch laid out [1, S, T, L]. -/
def sample {S : ℕ} (x : (⟨4, ![1, S, T, L]⟩ : Shape).Idx → EReal) (s : Fin S) : Fin T → Fin L → EReal :=
  fun c l => x (ix4 (0 : Fin 1) s c l)

/-- The whole result [1, S, T, H]: every sample attended to independently. -/
def result {S : ℕ} (x : (⟨4, ![1, S, T, L]⟩ : Shape).Idx → EReal) (Wk Wq Wv : (⟨2, ![H, L]⟩ : Shape).Idx → EReal) :
    (⟨4, ![1, S, T, H]⟩ : Shape).Idx → EReal :=
  fun i => attend (sample x (i 1)) Wk Wq Wv (i 2) (i 3)

theorem result_apply {S : ℕ} (x : (⟨4, ![1, S, T, L]⟩ : Shape).Idx → EReal) (Wk Wq Wv : (⟨2, ![H, L]⟩ : Shape).Idx → EReal)
    (z : Fin 1) (s : Fin S) (c : Fin T) (h : Fin H) :
    result x Wk Wq Wv (ix4 z s c h) = attend (sample x s) Wk Wq Wv c h := rfl

end Cert.Attention

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.KernelPayload.lean ====
/-
  What the kernel body computes from one sample's block, entry by entry.

  The body receives the sample's token features as a [1, 2048, 256] block and the three weight matrices whole. It forms
  keys, queries and values by three products with the transposed weights, the scores by the product of the queries with
  the transposed keys times the factor, the softmax of every row of the scores (row maximum, exponential, row sum,
  quotient), and the product of the weights with the values; the result is stored as a [1, 2048, 128] block. Changes of
  float format are the identity on the extended reals, a product accumulated into zeros is a finite sum, a lane
  reduction a sum or a fold of max over the row.

  The body's one value is cut into its stages (each a definition over whole arrays, so that a stage is opened once),
  each stage is read at an entry, and the body's value at (u, c, h) is the attention of the block's tokens at (c, h).
-/
import proofs.«162838_j20529943675114_1_alg».proof.Proof.Gen.KernelIdeal.Skeleton
import proofs.«162838_j20529943675114_1_alg».proof.Proof.Attention
import proofs.«162838_j20529943675114_1_alg».proof.Proof.LibKeepdims
import proofs.«162838_j20529943675114_1_alg».proof.Proof.LibBlockLayout
import proofs.«162838_j20529943675114_1_alg».proof.Proof.LibContractPlain
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open Cert.Attention

/-! ## The stages -/

/-- X · Wᵀ as the body forms it: both operands narrowed, the weights transposed, accumulated into zeros. -/
def projK (X : FVec Ideal S2048x256 .f32) (W : FVec Ideal S128x256 .f32) : FVec Ideal S2048x128 .f32 :=
  matmul dot_S2048x256_S256x128_S2048x128_1_0_0_1_n_n none (truncf .bf16 X bitsLt_bf16_f32)
    (transpose S256x128 [1, 0] (truncf .bf16 W bitsLt_bf16_f32) transposes_S128x256_p1_0_S256x128)
    (constant S2048x128 .f32 0x00000000#32)

/-- Q · Kᵀ times the factor. -/
def scoresK (Q K : FVec Ideal S2048x128 .f32) : FVec Ideal S2048x2048 .f32 :=
  mulf (matmul dot_S2048x128_S128x2048_S2048x2048_1_0_0_1_n_n none (truncf .bf16 Q bitsLt_bf16_f32)
      (transpose S128x2048 [1, 0] (truncf .bf16 K bitsLt_bf16_f32) transposes_S2048x128_p1_0_S128x2048)
      (constant S2048x2048 .f32 0x00000000#32))
    (broadcast S2048x2048 (Scalar.ofBits .f32 0x3DB504F3#32))

/-- Every row's maximum, spread back over the row. -/
def rowMaxK (S : FVec Ideal S2048x2048 .f32) : FVec Ideal S2048x2048 .f32 :=
  broadcastTo S2048x2048
    (shapeCast S2048x1
      (maximumf (broadcast S2048 (Scalar.ofBits .f32 0xFF800000#32))
        (multiReduction .maximumf [1] S2048 S 0xFF800000#32 reduces_S2048x2048_S2048 (.inl rfl) rfl))
      shapeCasts_S2048_S2048x1)
    broadcasts_S2048x1_S2048x2048

/-- exp of every score less its row's maximum. -/
def expK (S : FVec Ideal S2048x2048 .f32) : FVec Ideal S2048x2048 .f32 := exp (subf S (rowMaxK S))

/-- Every row's sum, spread back over the row. -/
def rowSumK (E : FVec Ideal S2048x2048 .f32) : FVec Ideal S2048x2048 .f32 :=
  broadcastTo S2048x2048
    (shapeCast S2048x1 (multiReduction .add [1] S2048 E 0x00000000#32 reduces_S2048x2048_S2048 (.inl rfl) rfl)
      shapeCasts_S2048_S2048x1)
    broadcasts_S2048x1_S2048x2048

/-- The softmax of every row. -/
def probK (S : FVec Ideal S2048x2048 .f32) : FVec Ideal S2048x2048 .f32 := divf (expK S) (rowSumK (expK S))

/-- Weights times values, both narrowed, accumulated into zeros. -/
def mixK (P : FVec Ideal S2048x2048 .f32) (V : FVec Ideal S2048x128 .f32) : FVec Ideal S2048x128 .f32 :=
  matmul dot_S2048x2048_S2048x128_S2048x128_1_0_0_1_n_n none (truncf .bf16 P bitsLt_bf16_f32)
    (truncf .bf16 V bitsLt_bf16_f32) (constant S2048x128 .f32 0x00000000#32)

/-- The body's stored value is the stages composed: the block's unit axis dropped on the way in and added on the way
    out; the first weight matrix makes the keys, the second the queries, the third the values. -/
theorem pay_stages (v0 : Vec Ideal S1x2048x256 .f32) (v3 v5 v7 : Vec Ideal S128x256 .f32) :
    k0_pay1 v0 v3 v5 v7
      = shapeCast S1x2048x128
          (mixK (probK (scoresK (projK (shapeCast S2048x256 v0 shapeCasts_S1x2048x256_S2048x256) v5)
              (projK (shapeCast S2048x256 v0 shapeCasts_S1x2048x256_S2048x256) v3)))
            (projK (shapeCast S2048x256 v0 shapeCasts_S1x2048x256_S2048x256) v7))
          shapeCasts_S2048x128_S1x2048x128 := rfl

/-! ## Each stage at an entry -/

theorem projK_apply (X : FVec Ideal S2048x256 .f32) (W : FVec Ideal S128x256 .f32) (c : Fin 2048) (h : Fin 128) :
    projK X W (ix2 c h) = proj (fun c l => X (ix2 c l)) W c h := by
  unfold projK proj
  refine (Cert.Lib.ContractPlain.matmulZero_apply _ rfl none _ _ c h).trans ?_
  refine Finset.sum_congr rfl fun l _ => ?_
  exact congrArg (X (ix2 c l) * ·) (transpose_ix2_apply _ _ l h)

theorem scoresK_apply (Q K : FVec Ideal S2048x128 .f32) (c d : Fin 2048) :
    scoresK Q K (ix2 c d) = score (fun c h => Q (ix2 c h)) (fun c h => K (ix2 c h)) c d := by
  unfold scoresK score
  refine congrArg (· * scale) ?_
  refine (Cert.Lib.ContractPlain.matmulZero_apply _ rfl none _ _ c d).trans ?_
  refine Finset.sum_congr rfl fun h _ => ?_
  exact congrArg (Q (ix2 c h) * ·) (transpose_ix2_apply _ _ h d)

theorem rowMaxK_apply (S : FVec Ideal S2048x2048 .f32) (c d : Fin 2048) :
    rowMaxK S (ix2 c d) = rowMax (fun c d => S (ix2 c d)) c := by
  unfold rowMaxK rowMax
  refine (Cert.Keepdims.broadcastTo_a1_ab_apply _ _ c d).trans ?_
  refine (Cert.Keepdims.shapeCast_a_a1_apply _ _ c (0 : Fin 1)).trans ?_
  refine (maximumf_apply _ _ (ix1 c)).trans ?_
  exact congrArg₂ max rfl (Cert.BlockLayout.multiReduction_max_trailing2 S _ _ _ _ c)

theorem expK_apply (S : FVec Ideal S2048x2048 .f32) (c d : Fin 2048) :
    expK S (ix2 c d) = expo (fun c d => S (ix2 c d)) c d := by
  unfold expK expo
  show Ideal.exp (S (ix2 c d) - rowMaxK S (ix2 c d)) = _
  rw [rowMaxK_apply]

theorem rowSumK_apply (E : FVec Ideal S2048x2048 .f32) (c d : Fin 2048) :
    rowSumK E (ix2 c d) = ∑ d' : Fin 2048, E (ix2 c d') := by
  unfold rowSumK
  refine (Cert.Keepdims.broadcastTo_a1_ab_apply _ _ c d).trans ?_
  refine (Cert.Keepdims.shapeCast_a_a1_apply _ _ c (0 : Fin 1)).trans ?_
  exact Cert.BlockLayout.multiReduction_add_trailing2 E _ _ _ _ c

theorem probK_apply (S : FVec Ideal S2048x2048 .f32) (c d : Fin 2048) :
    probK S (ix2 c d) = prob (fun c d => S (ix2 c d)) c d := by
  unfold probK prob denom
  show Ideal.div (expK S (ix2 c d)) (rowSumK (expK S) (ix2 c d)) = _
  rw [rowSumK_apply]
  simp only [expK_apply]

theorem mixK_apply (P : FVec Ideal S2048x2048 .f32) (V : FVec Ideal S2048x128 .f32) (c : Fin 2048) (h : Fin 128) :
    mixK P V (ix2 c h) = mix (fun c d => P (ix2 c d)) (fun d h => V (ix2 d h)) c h := by
  unfold mixK mix
  exact Cert.Lib.ContractPlain.matmulZero_apply _ rfl none _ _ c h

/-! ## The body's value at an entry -/

/-- The body's value at (u, c, h) is the attention of the block's tokens at (c, h), with the three weight matrices
    as keys', queries' and values' weights in the order the body loads them. -/
theorem pay_at (v0 : Vec Ideal S1x2048x256 .f32) (v3 v5 v7 : Vec Ideal S128x256 .f32) (u : Fin 1) (c : Fin 2048) (h : Fin 128) :
    k0_pay1 v0 v3 v5 v7 (ix3 u c h) = attend (fun c l => v0 (ix3 (0 : Fin 1) c l)) v3 v5 v7 c h := by
  rw [pay_stages]
  refine (shapeCast_ab_1ab_apply _ _ u c h).trans ?_
  rw [mixK_apply]
  unfold attend mix
  refine Finset.sum_congr rfl fun d _ => ?_
  simp only [probK_apply, scoresK_apply, projK_apply, shapeCast_1ab_ab_apply]

end Cert.KernelIdeal.Hand

end
-- ==== Proof.KernelValue.lean ====
/-
  The kernel's result array after the run.

  The grid has one point per sample. At point t the body is given block t of the input re-laid as [32, 2048, 256] —
  the 2048 × 256 token features of sample t — and the three weight matrices whole, and what it leaves is written back as
  block t of the [32, 2048, 128] output array. So that array, at (s, c, h), is the attention of sample s at (c, h): every
  index lies in exactly the block of its own sample's point. The host reshapes before and after the region only add or
  drop the leading unit axis of the batch.
-/
import proofs.«162838_j20529943675114_1_alg».proof.Proof.Gen.KernelIdeal.Frame
import proofs.«162838_j20529943675114_1_alg».proof.Proof.KernelPayload
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Attention

variable (m : (ℓ : Loc nD τ sig) → Buf (Elt Ideal) ℓ) (ρ : Dev nD → PrngReg)

/-! ## The output array as one function of the region's input arrays -/

/-- The [32, 2048, 128] array whose row s is the attention of row s of a [32, 2048, 256] array of samples. -/
def stacked (xs : FVec Ideal S32x2048x256 .f32) (wk wq wv : FVec Ideal S128x256 .f32) : FVec Ideal S32x2048x128 .f32 :=
  fun i => attend (fun c l => xs (ix3 (i 0) c l)) wk wq wv (i 1) (i 2)

theorem stacked_apply (xs : FVec Ideal S32x2048x256 .f32) (wk wq wv : FVec Ideal S128x256 .f32)
    (s : Fin 32) (c : Fin 2048) (h : Fin 128) :
    stacked xs wk wq wv (ix3 s c h) = attend (fun c l => xs (ix3 s c l)) wk wq wv c h := rfl

/-- What the body leaves from blocks that are sample s of `xs` and the weights whole is row s of `stacked`. -/
theorem block_value (xs : FVec Ideal S32x2048x256 .f32) (wk wq wv : FVec Ideal S128x256 .f32) (s : Fin 32)
    (x0 : Vec Ideal S1x2048x256 .f32) (x1 x2 x3 : Vec Ideal S128x256 .f32)
    (h0 : ∀ (c : Fin 2048) (l : Fin 256), x0 (ix3 (0 : Fin 1) c l) = xs (ix3 s c l))
    (h1 : ∀ y, x1 y = wk y) (h2 : ∀ y, x2 y = wq y) (h3 : ∀ y, x3 y = wv y)
    (y : S1x2048x128.Idx) (i : S32x2048x128.Idx)
    (hi0 : (i 0).val = s.val) (hi1 : (i 1).val = (y 1).val) (hi2 : (i 2).val = (y 2).val) :
    k0_pay1 x0 x1 x2 x3 y = stacked xs wk wq wv i := by
  obtain rfl : x1 = wk := funext h1
  obtain rfl : x2 = wq := funext h2
  obtain rfl : x3 = wv := funext h3
  obtain ⟨u, c, h, rfl⟩ : ∃ (u : Fin 1) (c : Fin 2048) (h : Fin 128), y = ix3 u c h := ⟨y 0, y 1, y 2, eq_ix3 y⟩
  obtain ⟨s', c', h', rfl⟩ : ∃ (s' : Fin 32) (c' : Fin 2048) (h' : Fin 128), i = ix3 s' c' h' :=
    ⟨i 0, i 1, i 2, eq_ix3 i⟩
  obtain rfl : s' = s := Fin.ext hi0
  obtain rfl : c' = c := Fin.ext hi1
  obtain rfl : h' = h := Fin.ext hi2
  rw [pay_at, stacked_apply]
  exact congrArg (fun X => attend X x1 x2 x3 c' h') (funext fun c => funext fun l => h0 c l)

/-! ## The blocks -/

theorem hz3 : (![0, 0, 0] : Fin 3 → Nat) = fun _ => 0 := funext fun a => by fin_cases a <;> rfl
theorem hz2 : (![0, 0] : Fin 2 → Nat) = fun _ => 0 := funext fun a => by fin_cases a <;> rfl

theorem N32 : cfg0.N = 32 := N_0

/-- The printed index maps over the grid: the sample blocks (input window 0, output window 4) sit at block row t, the
    weight windows at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The region's output array, from the arrays as the region finds them. -/
abbrev regionOut (c : Dev nD) : FVec Ideal S32x2048x128 .f32 :=
  stacked (V m c main_v0) (V m c main_arg1) (V m c main_arg2) (V m c main_arg3)

/-- What point t writes back is block t of `regionOut`. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4]
  unfold out0_4
  rw [View.canon_unit_zero hz3]
  simp only [View.ld_unit_zero (S := S1x2048x256) hz3, View.ld_unit_zero (S := S128x256) hz2]
  obtain ⟨e00, e01, e02, e10, e11, e20, e21, e30, e31, e40, e41, e42⟩ := idx_facts t
  have ht : t.val < 32 := Nat.lt_of_lt_of_eq t.isLt N32
  funext j
  show k0_pay1 (iblk m c 0 t) (iblk m c 1 t) (iblk m c 2 t) (iblk m c 3 t) j
    = stacked (V m c main_v0) (V m c main_arg1) (V m c main_arg2) (V m c main_arg3) (((cfg0.win 4).blk t).view.emb j)
  refine block_value (V m c main_v0) (V m c main_arg1) (V m c main_arg2) (V m c main_arg3) ⟨t.val, ht⟩
    (iblk m c 0 t) (iblk m c 1 t) (iblk m c 2 t) (iblk m c 3 t) ?_ ?_ ?_ ?_ j _ ?_ ?_ ?_
  · intro c' l
    show V m c main_v0 (((cfg0.win 0).blk t).view.emb (ix3 (0 : Fin 1) c' l)) = V m c main_v0 (ix3 ⟨t.val, ht⟩ c' l)
    refine congrArg _ (funext fun a => Fin.ext ?_)
    match a with
    | ⟨0, _⟩ => show win0_0.index t (0 : Fin 3) * 1 + 1 * 0 = t.val; omega
    | ⟨1, _⟩ => show win0_0.index t (1 : Fin 3) * 2048 + 1 * c'.val = c'.val; omega
    | ⟨2, _⟩ => show win0_0.index t (2 : Fin 3) * 256 + 1 * l.val = l.val; omega
  · intro y
    show V m c main_arg1 (((cfg0.win 1).blk t).view.emb y) = V m c main_arg1 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  · intro y
    show V m c main_arg2 (((cfg0.win 2).blk t).view.emb y) = V m c main_arg2 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 256 + 1 * (y 1).val = (y 1).val; omega
  · intro y
    show V m c main_arg3 (((cfg0.win 3).blk t).view.emb y) = V m c main_arg3 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 256 + 1 * (y 1).val = (y 1).val; omega
  · show win0_4.index t (0 : Fin 3) * 1 + 1 * (j 0).val = t.val
    have hj : (j 0).val < 1 := (j 0).isLt
    omega
  · show win0_4.index t (1 : Fin 3) * 2048 + 1 * (j 1).val = (j 1).val; omega
  · show win0_4.index t (2 : Fin 3) * 128 + 1 * (j 2).val = (j 2).val; omega

/-- An index of the output array is in point t's block iff each coordinate is in the block's range on its axis. -/
theorem mem_blk (t : Fin cfg0.N) (i : S32x2048x128.Idx) :
    i ∈ ((cfg0.win 4).blk t).view.set ↔ ∀ a : Fin 3, win0_4.index t a * S1x2048x128.size a ≤ (i a).val ∧ (i a).val < win0_4.index t a * S1x2048x128.size a + S1x2048x128.size a := by
  show i ∈ ((View.whole main_v1).slice (win0_4.rect t)).set ↔ _
  rw [View.set_slice_whole, Rect.mem_set_unit]
  exact Iff.rfl

/-- Every index (s, c, h) is in the block of point s. -/
theorem cover (i : S32x2048x128.Idx) :
    ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 128 := (i 2).isLt
  refine ⟨⟨(i 0).val, Nat.lt_of_lt_of_eq h0 N32.symm⟩, flush0_4 _, ?_⟩
  obtain ⟨-, -, -, -, -, -, -, -, -, e40, e41, e42⟩ := idx_facts ⟨(i 0).val, Nat.lt_of_lt_of_eq h0 N32.symm⟩
  rw [mem_blk]
  intro a
  match a with
  | ⟨0, _⟩ =>
    show win0_4.index _ (0 : Fin 3) * 1 ≤ (i 0).val ∧ (i 0).val < win0_4.index _ (0 : Fin 3) * 1 + 1
    rw [e40]; show (i 0).val * 1 ≤ (i 0).val ∧ (i 0).val < (i 0).val * 1 + 1; omega
  | ⟨1, _⟩ =>
    show win0_4.index _ (1 : Fin 3) * 2048 ≤ (i 1).val ∧ (i 1).val < win0_4.index _ (1 : Fin 3) * 2048 + 2048
    rw [e41]; omega
  | ⟨2, _⟩ =>
    show win0_4.index _ (2 : Fin 3) * 128 ≤ (i 2).val ∧ (i 2).val < win0_4.index _ (2 : Fin 3) * 128 + 128
    rw [e42]; omega

/-- The output array after the last point. -/
theorem final_out (c : Dev nD) : (dats m 0 c).arrAt 4 cfg0.N = regionOut m c :=
  (dats m 0 c).arrAt_eq_of_cover 4 (regionOut m c) (fun t _ => flushed_eq m c t) cover

/-! ## The host reshapes around the region -/

/-- The region's first input is the batch with its leading unit axis dropped. -/
theorem V_samples (c : Dev nD) :
    (V m c main_v0 : FVec Ideal S32x2048x256 .f32)
      = shapeCast S32x2048x256 (m ((c : Thread nD τ).loc main_arg0)) shapeCasts_S1x32x2048x256_S32x2048x256 := by
  show StableHlo.after hostOps0 (fun b => m (c, b)) (Proc.devRef .tc main_v0) = _
  after_results
  rfl

/-- The program's result is the region's output with the leading unit axis added back. -/
theorem tail_eq (c : Dev nD) :
    Pipeline.afterTail₀ cfgs (dats m) 0 (V0 m) [hostOps1] c main_v2
      = shapeCast S1x32x2048x128 (regionOut m c) shapeCasts_S32x2048x128_S1x32x2048x128 := by
  unfold Pipeline.afterTail₀
  show StableHlo.after hostOps1 _ (Proc.devRef .tc main_v2) = _
  after_results
  exact congrArg (fun A => shapeCast S1x32x2048x128 A shapeCasts_S32x2048x128_S1x32x2048x128)
    ((Pipeline.withArrays_arr spec0 launch0.win.arr_inj c _ _ 4).trans (final_out m c))

/-- With the reshapes read at an index, the result is the attention of every sample of the batch. -/
theorem result_eq (c : Dev nD) :
    shapeCast S1x32x2048x128 (regionOut m c) shapeCasts_S32x2048x128_S1x32x2048x128
      = result (m ((c : Thread nD τ).loc main_arg0)) (m ((c : Thread nD τ).loc main_arg1))
          (m ((c : Thread nD τ).loc main_arg2)) (m ((c : Thread nD τ).loc main_arg3)) := by
  funext i
  obtain ⟨z, s, t, h, rfl⟩ : ∃ (z : Fin 1) (s : Fin 32) (t : Fin 2048) (h : Fin 128), i = ix4 z s t h :=
    ⟨i 0, i 1, i 2, i 3, eq_ix4 i⟩
  rw [shapeCast_abc_1abc_apply, result_apply]
  unfold regionOut
  rw [stacked_apply, V_samples, V_main_arg1, V_main_arg2, V_main_arg3]
  refine congrArg (fun X => attend X _ _ _ t h) (funext fun c' => funext fun l => ?_)
  exact shapeCast_1abc_abc_apply _ _ s c' l

/-! ## The run -/

/-- Every weakly fair execution of the kernel's program ends with the result array at the attention of every sample
    of the batch and the arguments as they were. -/
theorem run : θ_run defs (onTc (τ := τ) (main (F := Ideal))) ⟨m, fun _ => 0, ρ⟩ fun r => ∀ c : Dev nD,
      r.2.mem ((c.tc : Thread nD τ).loc main_v2)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Hand

end
-- ==== Proof.RefValue.lean ====
/-
  The reference program read entry by entry.

  The reference lays the batch out as [32, 1, 2048, ·] and applies the host's batched contractions, a row maximum, an
  exponential, a row sum and a quotient. Each stage, read at an index given by its coordinates (sample s, the unit
  coordinate u, token c, and a feature, head or token coordinate), is the corresponding quantity of the attention of
  sample s: the projections are sums over the 256 features, the scores a sum over the 128 head coordinates times the
  factor, the row maximum a fold of max over the 2048 tokens, the weights a quotient by a sum over the tokens, the
  output a sum over the tokens. The two reshapes at either end only move the unit axis.
-/
import proofs.«162838_j20529943675114_1_alg».proof.Proof.Gen.ReferenceIdeal.Read
import proofs.«162838_j20529943675114_1_alg».proof.Proof.Attention
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Attention

variable (x0 : (⟨S1x32x2048x256, .f32⟩ : BufTy).Contents (Elt Ideal))
variable (x1 x2 x3 : (⟨S128x256, .f32⟩ : BufTy).Contents (Elt Ideal))

/-- The batch re-laid as [32, 1, 2048, 256]: entry (s, u, c, l) is the input's (0, s, c, l). -/
theorem v0_at (s : Fin 32) (u : Fin 1) (c : Fin 2048) (l : Fin 256) :
    val_main_v0 (F := Ideal) x0 (ix4 s u c l) = x0 (ix4 (0 : Fin 1) s c l) := by
  rw [val_main_v0_apply]
  refine congrArg x0 (funext fun a => Fin.ext ?_)
  have hs := s.isLt; have hu := u.isLt; have hc := c.isLt; have hl := l.isLt
  match a with
  | ⟨0, _⟩ => rfl
  | ⟨1, _⟩ => show (((s.val * 1 + u.val) * 2048 + c.val) * 256 + l.val) / 524288 % 32 = s.val; omega
  | ⟨2, _⟩ => show (((s.val * 1 + u.val) * 2048 + c.val) * 256 + l.val) / 256 % 2048 = c.val; omega
  | ⟨3, _⟩ => show (((s.val * 1 + u.val) * 2048 + c.val) * 256 + l.val) % 256 = l.val; omega

theorem lidx_feat (s : Fin 32) (u : Fin 1) (c : Fin 2048) (h : Fin 128) (l : Fin 256) :
    lidx_main_v1 (ix4 s u c h) l = ix4 s u c l :=
  funext fun a => Fin.ext (by match a with | ⟨0, _⟩ => rfl | ⟨1, _⟩ => rfl | ⟨2, _⟩ => rfl | ⟨3, _⟩ => rfl)

theorem ridx_feat (s : Fin 32) (u : Fin 1) (c : Fin 2048) (h : Fin 128) (l : Fin 256) :
    ridx_main_v1 (ix4 s u c h) l = ix2 h l :=
  funext fun a => Fin.ext (by match a with | ⟨0, _⟩ => rfl | ⟨1, _⟩ => rfl)

/-- The keys: x · Wkᵀ of sample s. -/
theorem v1_at (s : Fin 32) (u : Fin 1) (c : Fin 2048) (h : Fin 128) :
    val_main_v1 (F := Ideal) x0 x1 (ix4 s u c h) = proj (sample x0 s) x1 c h := by
  rw [val_main_v1_apply]
  unfold proj
  refine Finset.sum_congr rfl fun l _ => ?_
  rw [lidx_feat, ridx_feat, v0_at]
  rfl

/-- The queries: x · Wqᵀ of sample s. -/
theorem v2_at (s : Fin 32) (u : Fin 1) (c : Fin 2048) (h : Fin 128) :
    val_main_v2 (F := Ideal) x0 x2 (ix4 s u c h) = proj (sample x0 s) x2 c h := by
  rw [val_main_v2_apply]
  unfold proj
  refine Finset.sum_congr rfl fun l _ => ?_
  rw [show lidx_main_v2 (ix4 s u c h) l = ix4 s u c l from lidx_feat s u c h l,
    show ridx_main_v2 (ix4 s u c h) l = ix2 h l from ridx_feat s u c h l, v0_at]
  rfl

/-- The values: x · Wvᵀ of sample s. -/
theorem v3_at (s : Fin 32) (u : Fin 1) (c : Fin 2048) (h : Fin 128) :
    val_main_v3 (F := Ideal) x0 x3 (ix4 s u c h) = proj (sample x0 s) x3 c h := by
  rw [val_main_v3_apply]
  unfold proj
  refine Finset.sum_congr rfl fun l _ => ?_
  rw [show lidx_main_v3 (ix4 s u c h) l = ix4 s u c l from lidx_feat s u c h l,
    show ridx_main_v3 (ix4 s u c h) l = ix2 h l from ridx_feat s u c h l, v0_at]
  rfl

/-- The scores of sample s, as the reference's stages spell them. -/
abbrev scores (s : Fin 32) : Fin 2048 → Fin 2048 → EReal :=
  score (proj (sample x0 s) x2) (proj (sample x0 s) x1)

/-- Queries against keys, scaled: the scores. -/
theorem v6_at (s : Fin 32) (u : Fin 1) (c d : Fin 2048) :
    val_main_v6 (F := Ideal) x0 x1 x2 (ix4 s u c d) = scores x0 x1 x2 s c d := by
  rw [val_main_v6_apply, val_main_v4_apply, val_main_v5_apply, val_main_cst_apply]
  show (∑ k : Fin 128, _) * scale = (∑ h : Fin 128, _) * scale
  refine congrArg (· * scale) (Finset.sum_congr rfl fun h _ => ?_)
  have e1 : lidx_main_v4 (ix4 s u c d) h = ix4 s u c h :=
    funext fun a => Fin.ext (by match a with | ⟨0, _⟩ => rfl | ⟨1, _⟩ => rfl | ⟨2, _⟩ => rfl | ⟨3, _⟩ => rfl)
  have e2 : ridx_main_v4 (ix4 s u c d) h = ix4 s u d h :=
    funext fun a => Fin.ext (by match a with | ⟨0, _⟩ => rfl | ⟨1, _⟩ => rfl | ⟨2, _⟩ => rfl | ⟨3, _⟩ => rfl)
  rw [e1, e2, v2_at, v1_at]

/-- Reducing [32, 1, 2048, 2048] over its trailing axis: the source index over (s, u, c) with d inserted is (s, u, c, d). -/
theorem lift_tokens (hred : S32x1x2048x2048.Reduces [(3 : Fin 4)] S32x1x2048) (s : Fin 32) (u : Fin 1) (c d : Fin 2048) :
    hred.lift (ix3 s u c) d = ix4 s u c d :=
  funext fun a => Fin.ext (by match a with | ⟨0, _⟩ => rfl | ⟨1, _⟩ => rfl | ⟨2, _⟩ => rfl | ⟨3, _⟩ => rfl)

/-- The host's maximum over the tokens d of row (s, u, c) of the scores: the fold of max from -∞. -/
theorem v7_at (s : Fin 32) (u : Fin 1) (c : Fin 2048) :
    val_main_v7 (F := Ideal) x0 x1 x2 (ix3 s u c)
      = (Finset.univ : Finset (Fin 2048)).fold max negInf fun d => scores x0 x1 x2 s c d := by
  have hred : S32x1x2048x2048.Reduces [(3 : Fin 4)] S32x1x2048 := by decide
  unfold val_main_v7
  refine (Host.reduce_eq_fold_single (FloatOps.maximumf (F := Ideal) (φ := .f32)) _ _ reducesTo_S32x1x2048x2048_S32x1x2048_d3 hred h_S_ (ix3 s u c)).trans ?_
  refine congrArg (Finset.fold max negInf · (Finset.univ : Finset (Fin 2048))) (funext fun (d : Fin 2048) => ?_)
  exact (congrArg (val_main_v6 (F := Ideal) x0 x1 x2) (lift_tokens hred s u c d)).trans (v6_at x0 x1 x2 s u c d)

/-- The row maximum, taken once more against -∞. -/
theorem v9_at (s : Fin 32) (u : Fin 1) (c : Fin 2048) :
    val_main_v9 (F := Ideal) x0 x1 x2 (ix3 s u c) = rowMax (scores x0 x1 x2 s) c := by
  rw [val_main_v9_apply, v7_at, val_main_v8_apply, val_main_cst_1_apply]
  rfl

/-- The row maximum spread back over the row. -/
theorem v11_at (s : Fin 32) (u : Fin 1) (c d : Fin 2048) :
    val_main_v11 (F := Ideal) x0 x1 x2 (ix4 s u c d) = rowMax (scores x0 x1 x2 s) c := by
  rw [val_main_v11_apply, val_main_v10_apply]
  have e : idx_main_v10 (idx_main_v11 (ix4 s u c d)) = ix3 s (0 : Fin 1) c :=
    funext fun a => Fin.ext (by match a with | ⟨0, _⟩ => rfl | ⟨1, _⟩ => rfl | ⟨2, _⟩ => rfl)
  rw [e, v9_at]

/-- exp of a score less its row's maximum. -/
theorem v13_at (s : Fin 32) (u : Fin 1) (c d : Fin 2048) :
    val_main_v13 (F := Ideal) x0 x1 x2 (ix4 s u c d) = expo (scores x0 x1 x2 s) c d := by
  rw [val_main_v13_apply, val_main_v12_apply, v6_at, v11_at]
  rfl

/-- The row sums of the exponentials: the host's sum starts from the zero word, which adds nothing. -/
theorem v14_at (s : Fin 32) (u : Fin 1) (c : Fin 2048) :
    val_main_v14 (F := Ideal) x0 x1 x2 (ix3 s u c) = denom (scores x0 x1 x2 s) c := by
  rw [val_main_v14_apply, val_main_cst_2_apply]
  show Ideal.ofBits .f32 0x00000000#32 + _ = _
  rw [Ideal.ofBits_zero_f32, zero_add]
  unfold denom
  refine Finset.sum_congr rfl fun d _ => ?_
  have e : idx_main_v14 (ix3 s u c) d = ix4 s u c d :=
    funext fun a => Fin.ext (by match a with | ⟨0, _⟩ => rfl | ⟨1, _⟩ => rfl | ⟨2, _⟩ => rfl | ⟨3, _⟩ => rfl)
  rw [e, v13_at]

/-- The row sum spread back over the row. -/
theorem v16_at (s : Fin 32) (u : Fin 1) (c d : Fin 2048) :
    val_main_v16 (F := Ideal) x0 x1 x2 (ix4 s u c d) = denom (scores x0 x1 x2 s) c := by
  rw [val_main_v16_apply, val_main_v15_apply]
  have e : idx_main_v15 (idx_main_v16 (ix4 s u c d)) = ix3 s (0 : Fin 1) c :=
    funext fun a => Fin.ext (by match a with | ⟨0, _⟩ => rfl | ⟨1, _⟩ => rfl | ⟨2, _⟩ => rfl)
  rw [e, v14_at]

/-- The softmax weights. -/
theorem v17_at (s : Fin 32) (u : Fin 1) (c d : Fin 2048) :
    val_main_v17 (F := Ideal) x0 x1 x2 (ix4 s u c d) = prob (scores x0 x1 x2 s) c d := by
  rw [val_main_v17_apply, v13_at, v16_at]
  rfl

/-- Weights times values: the attention of sample s. -/
theorem v18_at (s : Fin 32) (u : Fin 1) (c : Fin 2048) (h : Fin 128) :
    val_main_v18 (F := Ideal) x0 x1 x2 x3 (ix4 s u c h) = attend (sample x0 s) x1 x2 x3 c h := by
  rw [val_main_v18_apply]
  unfold attend mix
  refine Finset.sum_congr rfl fun d _ => ?_
  have e1 : lidx_main_v18 (ix4 s u c h) d = ix4 s u c d :=
    funext fun a => Fin.ext (by match a with | ⟨0, _⟩ => rfl | ⟨1, _⟩ => rfl | ⟨2, _⟩ => rfl | ⟨3, _⟩ => rfl)
  have e2 : ridx_main_v18 (ix4 s u c h) d = ix4 s u d h :=
    funext fun a => Fin.ext (by match a with | ⟨0, _⟩ => rfl | ⟨1, _⟩ => rfl | ⟨2, _⟩ => rfl | ⟨3, _⟩ => rfl)
  rw [e1, e2, v17_at, v3_at]

/-- The reference's result, re-laid as [1, 32, 2048, 128], is the attention of every sample. -/
theorem ref_is_result : val_main_v19 (F := Ideal) x0 x1 x2 x3 = result x0 x1 x2 x3 := by
  funext i
  obtain ⟨z, s, c, h, rfl⟩ : ∃ (z : Fin 1) (s : Fin 32) (c : Fin 2048) (h : Fin 128), i = ix4 z s c h :=
    ⟨i 0, i 1, i 2, i 3, eq_ix4 i⟩
  rw [val_main_v19_apply, result_apply]
  have e : idx_main_v19 (ix4 z s c h) = ix4 s (0 : Fin 1) c h := by
    funext a
    apply Fin.ext
    have hz := z.isLt; have hs := s.isLt; have hc := c.isLt; have hh := h.isLt
    match a with
    | ⟨0, _⟩ => show (((z.val * 32 + s.val) * 2048 + c.val) * 128 + h.val) / 262144 = s.val; omega
    | ⟨1, _⟩ => rfl
    | ⟨2, _⟩ => show (((z.val * 32 + s.val) * 2048 + c.val) * 128 + h.val) / 128 % 2048 = c.val; omega
    | ⟨3, _⟩ => show (((z.val * 32 + s.val) * 2048 + c.val) * 128 + h.val) % 128 = h.val; omega
  rw [e, v18_at]

end Cert.ReferenceIdeal.RefValue

end
-- ==== Proof.lean ====
/-
  Single-head attention over the 2048 tokens of each of 32 independent samples: a kernel that handles one sample per grid
  point against a reference that handles the whole batch with batched contractions.

  For one sample with token features X (2048 × 256) and weights Wk, Wq, Wv (128 × 256 each) both programs compute
      K = X·Wkᵀ,  Q = X·Wqᵀ,  V = X·Wvᵀ,
      S = (Q·Kᵀ) · f,                      f the one f32 word both programs spell for 128^(-1/2),
      M_c = max(-∞, max_d S_cd),   E_cd = exp(S_cd − M_c),   Z_c = Σ_d E_cd,   P_cd = E_cd / Z_c,
      out = P·V.
  On the extended reals a change of float format is the identity, a matrix product into a zero accumulator and the host's
  contraction are the same finite sum, a lane reduction and the host's reduction are the same sum or the same fold of max,
  and exp and the quotient are one function on both sides. So the two programs are the same function entry by entry, and
  no law of arithmetic beyond that is used: the precondition that the inputs are finite is never opened.

  The kernel's side: the value the body stores, read at an entry (Proof/KernelPayload.lean), each sample's block written
  back to its own rows of the output array and the two reshapes around the region (Proof/KernelValue.lean). The
  reference's side: its stages read at an entry (Proof/RefValue.lean). Both are stated against one specification
  (Proof/Attention.lean). The kernel's idealization rewrites nothing, so there is nothing to preserve.
-/
import proofs.«162838_j20529943675114_1_alg».proof.Defs
import proofs.«162838_j20529943675114_1_alg».proof.Proof.Gen.Kernel
import proofs.«162838_j20529943675114_1_alg».proof.Proof.Gen.Kernel.Skeleton
import proofs.«162838_j20529943675114_1_alg».proof.Proof.Gen.Kernel.Launch
import proofs.«162838_j20529943675114_1_alg».proof.Proof.Gen.Kernel.Points
import proofs.«162838_j20529943675114_1_alg».proof.Proof.Gen.Kernel.Frame
import proofs.«162838_j20529943675114_1_alg».proof.Proof.Gen.KernelIdeal
import proofs.«162838_j20529943675114_1_alg».proof.Proof.Gen.KernelIdeal.Skeleton
import proofs.«162838_j20529943675114_1_alg».proof.Proof.Gen.KernelIdeal.Launch
import proofs.«162838_j20529943675114_1_alg».proof.Proof.Gen.KernelIdeal.Points
import proofs.«162838_j20529943675114_1_alg».proof.Proof.Gen.KernelIdeal.Frame
import proofs.«162838_j20529943675114_1_alg».proof.Proof.Gen.ReferenceIdeal
import proofs.«162838_j20529943675114_1_alg».proof.Proof.Gen.Pre_finite_inputs
import proofs.«162838_j20529943675114_1_alg».proof.Proof.Gen.ReferenceIdeal.Run
import proofs.«162838_j20529943675114_1_alg».proof.Proof.Gen.ReferenceIdeal.Read
import proofs.«162838_j20529943675114_1_alg».proof.Proof.KernelValue
import proofs.«162838_j20529943675114_1_alg».proof.Proof.RefValue
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on the four arguments both programs end with the attention of every sample of the batch
    in their result arrays. -/
theorem algebraic : Cert.algebraic_KernelIdeal_ReferenceIdeal := by
  intro m ρ m' ρ' _ hagree
  refine ⟨fun c => Cert.Attention.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_is_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
